-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024 : Shape := ⟨1, ![1024]⟩
abbrev S1x1024 : Shape := ⟨2, ![1, 1024]⟩
abbrev S100000x1024 : Shape := ⟨2, ![100000, 1024]⟩
abbrev S1000x1024 : Shape := ⟨2, ![1000, 1024]⟩
abbrev S1024x100000 : Shape := ⟨2, ![1024, 100000]⟩

abbrev nBuf : Space → Nat
  | .hbm => 4
  | .vmem => 3
  | .smem => 0
  | _ => 0

abbrev bufTy : (tb : Table) → Fin (tcTables nBuf tb) → BufTy
  | .hbm, ⟨0, _⟩ => ⟨S1024, .i32⟩
  | .hbm, ⟨1, _⟩ => ⟨S1x1024, .i32⟩
  | .hbm, ⟨2, _⟩ => ⟨S100000x1024, .f32⟩
  | .hbm, ⟨3, _⟩ => ⟨S1024x100000, .f32⟩
  | .local _ .vmem, ⟨0, _⟩ => ⟨S1x1024, .i32⟩
  | .local _ .vmem, ⟨1, _⟩ => ⟨S1000x1024, .f32⟩
  | .local _ .vmem, ⟨2, _⟩ => ⟨S1000x1024, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S1024_S1x1024 : S1024.ShapeCasts S1x1024
  iota_S1000x1024_d0_w32 : S1000x1024.Iotas .tc 32 [0]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  natLt_1_32 : 1 < 32
  inb_S1000x1024_S1000x1024_0_0 : ∀ a, (![0, 0] : Fin 2 → Nat) a + S1000x1024.size a ≤ S1000x1024.size a
  h_S1000x1024 : 0 < S1000x1024.numel
  transposes_S100000x1024_S1024x100000_1_0 : S100000x1024.Transposes [1, 0] S1024x100000
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .i32 = 32 ∨ (Rect.block (s := S1x1024) S1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1024.size a ≤ S100000x1024.size a
  hwx0_1 : ∀ i : grid0.Coords, EltTy.bits .f32 = 32 ∨ (Rect.block (s := S100000x1024) S1000x1024.size (cc0_transform_1 i) (hinb0_1 i)).WholeWords (EltTy.packing .f32)

variable [Facts₀]

abbrev win0_0 : Pipeline.Window sig grid0 :=
  Pipeline.Window.ofSpec (Memref.whole main_v0) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1000x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024 : Shape := ⟨1, ![1024]⟩
abbrev S1024x1 : Shape := ⟨2, ![1024, 1]⟩
abbrev S1x100000 : Shape := ⟨2, ![1, 100000]⟩
abbrev S1024x100000 : Shape := ⟨2, ![1024, 100000]⟩

abbrev nBuf : Space → Nat
  | .hbm => 7
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024x1, .i32⟩
  | .hbm, ⟨2, _⟩ => ⟨S1x100000, .i32⟩
  | .hbm, ⟨3, _⟩ => ⟨S1024x100000, .i32⟩
  | .hbm, ⟨4, _⟩ => ⟨S1024x100000, .i32⟩
  | .hbm, ⟨5, _⟩ => ⟨S1024x100000, .i1⟩
  | .hbm, ⟨6, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)

variable [Facts₀]

class Facts : Prop extends Facts₀ where

variable [Facts]
-- ==== Proof.OneHotSpec.lean ====
/-
  The one-hot table, stated once for both programs.

  For a vector `u` of 1024 words, the table has a row per position `b < 1024` and a column per class `k < 100000`; its
  entry at `(b, k)` is `1` when the word `u b` IS the word of `k`, and `0` otherwise. An entry is written here as the
  comparison's one bit read as a natural number (`hot`), which is what both programs compute: the reference converts the
  bit unsigned; the kernel widens it to 32 bits with zeros and converts that signed, and a zero-extended bit is never
  negative (`bit_signed`). Neither side needs anything of the words `u b`: a word that is no class's word gives a row of zeros
  on both sides.

  The kernel builds the table TRANSPOSED (`tableT`: a row per class, a column per position), a block of 1000 classes at a
  time, the class of row `r` of block `t` being `1000 t + r` computed in 32-bit words (`class_word`: no wrap is needed for
  the equation, the words of a sum and of a product are the sum and the product of the words); the host then transposes it
  (`transpose_tableT`).
-/
import Idealize.ShloMosaic.PureOps.Ideal
import Idealize.ShloMosaic.Lib.ValueIdx
import Idealize.ShloMosaic.Lib.ValueLayout

noncomputable section

namespace Cert.OneHot

open Idealize.ShloMosaic Idealize.ShloMosaic.ValueIdx

/-- One entry: the bit of "the word `x` is the word `k`", as an extended real (`0` or `1`). -/
def hot (x k : BitVec 32) : EReal := (((IntOp.cmpi .eq x k).toNat : ℝ) : EReal)

/-- The positions' words. -/
abbrev Users : Type := (⟨1, ![1024]⟩ : Shape).Idx → BitVec 32

/-- The table: entry `(b, k)` compares position `b`'s word with class `k`'s. -/
def table (u : Users) : (⟨2, ![1024, 100000]⟩ : Shape).Idx → EReal :=
  fun i => hot (u (ix1 (⟨(i 0).val, (i 0).isLt⟩ : Fin 1024))) (BitVec.ofNat 32 (i 1).val)

/-- The table transposed: entry `(k, b)` compares position `b`'s word with class `k`'s. -/
def tableT (u : Users) : (⟨2, ![100000, 1024]⟩ : Shape).Idx → EReal :=
  fun i => hot (u (ix1 (⟨(i 1).val, (i 1).isLt⟩ : Fin 1024))) (BitVec.ofNat 32 (i 0).val)

theorem table_ix2 (u : Users) (b : Fin 1024) (k : Fin 100000) :
    table u (ix2 b k) = hot (u (ix1 b)) (BitVec.ofNat 32 k.val) := rfl

theorem tableT_ix2 (u : Users) (k : Fin 100000) (b : Fin 1024) :
    tableT u (ix2 k b) = hot (u (ix1 b)) (BitVec.ofNat 32 k.val) := rfl

/-- Transposing the transposed table gives the table. -/
theorem transpose_tableT (u : Users)
    (h : (⟨2, ![100000, 1024]⟩ : Shape).Transposes [1, 0] ⟨2, ![1024, 100000]⟩) :
    transpose ⟨2, ![1024, 100000]⟩ [1, 0] (tableT u) h = table u := by
  funext j
  obtain ⟨b, k, rfl⟩ : ∃ (b : Fin 1024) (k : Fin 100000), j = ix2 b k := ⟨j 0, j 1, eq_ix2 j⟩
  rw [transpose_ix2_apply, table_ix2, tableT_ix2]

/-- Row `r` of block `t` is class `1000 t + r`: the kernel's word arithmetic (the row's word plus the block's word times the
    word of 1000) is the word of that number. -/
theorem class_word (t r : Nat) :
    IntOp.addi (BitVec.ofNat 32 r) (Scalar.muli (BitVec.ofNat 32 t) 1000#32) = BitVec.ofNat 32 (t * 1000 + r) := by
  show BitVec.ofNat 32 r + BitVec.ofNat 32 t * BitVec.ofNat 32 1000 = BitVec.ofNat 32 (t * 1000 + r)
  rw [← BitVec.ofNat_mul, ← BitVec.ofNat_add, Nat.add_comm]

/-- A bit widened with zeros to 32 bits and read as a signed integer is the bit read as a natural number. -/
theorem bit_signed (z : BitVec 1) : (((z.setWidth 32).toInt : ℝ) : EReal) = ((z.toNat : ℝ) : EReal) := by
  have h : ∀ z : BitVec 1, (z.setWidth 32).toInt = (z.toNat : ℤ) := by decide
  rw [h z, Int.cast_natCast]

end Cert.OneHot

end
-- ==== Proof.KernelPayload.lean ====
/-
  What the kernel's body stores, entry by entry.

  At grid point `t` the body loads the one row of the positions' words, broadcasts it over 1000 rows, compares it with
  "row number + 1000 t" (an iota along the rows plus the block's offset, in 32-bit words), widens the bit to 32 bits and
  converts it to a float. Entry `(r, b)` of the stored block is therefore the table's entry for position `b` and class
  `1000 t + r`.
-/
import proofs.«153188_g33088428048464_cont_sun_c4_452_22_alg».proof.Proof.Gen.KernelIdeal.Skeleton
import proofs.«153188_g33088428048464_cont_sun_c4_452_22_alg».proof.Proof.OneHotSpec
import Idealize.ShloMosaic.Lib.Pipeline.Value
import Idealize.ShloMosaic.Lib.ValueLayout

noncomputable section

namespace Cert.KernelIdeal.Payload

open Idealize.ShloMosaic Idealize.ShloMosaic.ValueIdx Cert.KernelIdeal Cert.KernelIdeal.Gen Cert.OneHot

/-- Entry `(r, b)` of the block stored at grid coordinates `i`: position `b`'s word (the loaded row's entry `b`) against the
    word of class `1000 · i₀ + r`. -/
theorem pay_apply (i : grid0.Coords) (v4 : Vec Ideal S1x1024 .i32) (r : Fin 1000) (b : Fin 1024) :
    k0_pay1 (F := Ideal) i v4 (ix2 r b)
      = hot (v4 (ix2 (0 : Fin 1) b)) (BitVec.ofNat 32 ((i 0).val * 1000 + r.val)) := by
  unfold k0_pay1
  dsimp only [sitofp, extui, cmpi, addi, broadcast]
  rw [broadcastTo_1b_ab_apply, shapeCast_self, iota_single_apply, class_word]
  exact bit_signed _

end Cert.KernelIdeal.Payload

end
-- ==== Proof.KernelBlocks.lean ====
/-
  From the blocks the kernel writes back to the whole array.

  The region reads one array, the positions' words reshaped to a single row (`V_users`), through a window that is the whole
  array at every point (`iblk0_apply`). Its output window's block at point `t` is rows `1000 t … 1000 t + 999` of a
  100000 × 1024 array, all 1024 columns. What point `t` writes back there is the stored block, whose entry `(r, b)` is the
  table's entry for position `b` and class `1000 t + r`: block `t` of the transposed table (`flushed_eq`). Every point writes
  back, and class `k` lies in block `k / 1000`, so the blocks cover the array and after the region it IS the transposed
  table (`final`).
-/
import proofs.«153188_g33088428048464_cont_sun_c4_452_22_alg».proof.Proof.KernelIdealFrame
import proofs.«153188_g33088428048464_cont_sun_c4_452_22_alg».proof.Proof.KernelPayload
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Idealize.ShloMosaic.ValueIdx Cert.KernelIdeal Cert.KernelIdeal.Gen Cert.KernelIdeal.GenP Cert.KernelIdeal.Payload Cert.OneHot

variable (m : (ℓ : Loc nD τ sig) → Buf (Elt Ideal) ℓ) (ρ : Dev nD → PrngReg)

theorem hz : (![0, 0] : Fin 2 → Nat) = fun _ => 0 := funext fun a => by fin_cases a <;> rfl

/-- The array the region reads. -/
theorem V_users (c : Dev nD) :
    (V m c main_v0 : S1x1024.Idx → BitVec 32)
      = shapeCast S1x1024 (m ((c : Thread nD τ).loc main_arg0) : S1024.Idx → BitVec 32) shapeCasts_S1024_S1x1024 := by
  show StableHlo.after hostOps0 (fun b => m (c, b)) (Proc.devRef .tc main_v0) = _
  after_results
  rfl

theorem idx_facts : ∀ t : Fin cfg0.N, win0_1.index t (0 : Fin 2) = t.val ∧ win0_1.index t (1 : Fin 2) = 0
    ∧ win0_0.index t (0 : Fin 2) = 0 ∧ win0_0.index t (1 : Fin 2) = 0 ∧ (grid0.coords t 0).val = t.val :=
  (by decide +kernel : ∀ t : Fin grid0.N, _)

/-- The input window's block, at any point, is the whole one-row array: its entry `(0, b)` is position `b`'s word. -/
theorem iblk0_apply (c : Dev nD) (t : Fin cfg0.N) (b : Fin 1024) :
    (iblk m c 0 t : Vec Ideal S1x1024 .i32) (ix2 (0 : Fin 1) b)
      = (m ((c : Thread nD τ).loc main_arg0) : S1024.Idx → BitVec 32) (ix1 b) := by
  obtain ⟨-, -, e0, e1, -⟩ := idx_facts t
  have he : ((cfg0.win 0).blk t).view.emb (ix2 (0 : Fin 1) b) = ix2 (0 : Fin 1) b := by
    funext a; apply Fin.ext
    match a with
    | ⟨0, _⟩ => show win0_0.index t (0 : Fin 2) * 1 + 1 * 0 = 0; omega
    | ⟨1, _⟩ => show win0_0.index t (1 : Fin 2) * 1024 + 1 * b.val = b.val; omega
  unfold iblk
  rw [View.read_apply]
  show V m c main_v0 (((cfg0.win 0).blk t).view.emb (ix2 (0 : Fin 1) b)) = _
  rw [he, V_users, shapeCast_a_1a_apply]

/-- WHAT POINT `t` WRITES BACK is block `t` of the transposed table of the positions' words. -/
theorem flushed_eq (c : Dev nD) (t : Fin cfg0.N) :
    (dats m 0 c).flushed 1 t
      = ((cfg0.win 1).blk t).view.read (Elt Ideal) (tableT (m ((c : Thread nD τ).loc main_arg0))) := by
  show (cfg0.win 1).cut (grid0.coords t) ((dats m 0 c).after 1 t) = _
  rw [after0_1]
  unfold out0_1
  rw [View.canon_unit_zero hz]
  simp only [View.ld_unit_zero (S := S1x1024) hz]
  obtain ⟨e0, e1, -, -, eg⟩ := idx_facts t
  have ht : t.val < 100 := lt_of_lt_of_eq t.isLt N_0
  funext j
  obtain ⟨r, b, rfl⟩ : ∃ (r : Fin 1000) (b : Fin 1024), j = ix2 r b := ⟨j 0, j 1, eq_ix2 j⟩
  show k0_pay1 (grid0.coords t) (iblk m c 0 t) (ix2 r b) = tableT _ (((cfg0.win 1).blk t).view.emb (ix2 r b))
  have he : ((cfg0.win 1).blk t).view.emb (ix2 r b)
      = ix2 (⟨t.val * 1000 + r.val, by have := r.isLt; omega⟩ : Fin 100000) b := by
    funext a; apply Fin.ext
    match a with
    | ⟨0, _⟩ => show win0_1.index t (0 : Fin 2) * 1000 + 1 * r.val = t.val * 1000 + r.val; omega
    | ⟨1, _⟩ => show win0_1.index t (1 : Fin 2) * 1024 + 1 * b.val = b.val; omega
  refine (pay_apply (grid0.coords t) (iblk m c 0 t) r b).trans ?_
  rw [he, tableT_ix2, iblk0_apply, eg]

/-- An index of the array is in point `t`'s block iff each coordinate is in the block's range on its axis. -/
theorem mem_blk (t : Fin cfg0.N) (i : S100000x1024.Idx) :
    i ∈ ((cfg0.win 1).blk t).view.set ↔ ∀ a : Fin 2, win0_1.index t a * S1000x1024.size a ≤ (i a).val
      ∧ (i a).val < win0_1.index t a * S1000x1024.size a + S1000x1024.size a := by
  show i ∈ ((View.whole main_v1).slice (win0_1.rect t)).set ↔ _
  rw [View.set_slice_whole, Rect.mem_set_unit]
  exact Iff.rfl

/-- THE ARRAY after the region: the blocks of 1000 classes tile the 100000 classes (class `k` is in block `k / 1000`), so
    the array is the transposed table. -/
theorem final (c : Dev nD) :
    (dats m 0 c).arrAt 1 cfg0.N = tableT (m ((c : Thread nD τ).loc main_arg0)) :=
  (dats m 0 c).arrAt_eq_of_cover 1 _ (fun t _ => flushed_eq m c t) fun i => by
    have h0 : (i 0).val < 100000 := (i 0).isLt
    have h1 : (i 1).val < 1024 := (i 1).isLt
    obtain ⟨t, ht⟩ : ∃ t : Fin cfg0.N, t.val = (i 0).val / 1000 :=
      ⟨⟨(i 0).val / 1000, by rw [show cfg0.N = 100 from N_0]; omega⟩, rfl⟩
    obtain ⟨e0, e1, -, -, -⟩ := idx_facts t
    refine ⟨t, flush0_1 t, ?_⟩
    rw [mem_blk]
    intro a
    match a with
    | ⟨0, _⟩ =>
      show win0_1.index t (0 : Fin 2) * 1000 ≤ (i 0).val ∧ (i 0).val < win0_1.index t (0 : Fin 2) * 1000 + 1000
      omega
    | ⟨1, _⟩ =>
      show win0_1.index t (1 : Fin 2) * 1024 ≤ (i 1).val ∧ (i 1).val < win0_1.index t (1 : Fin 2) * 1024 + 1024
      omega

end Cert.KernelIdeal.Blocks

end
-- ==== Proof.KernelRun.lean ====
/-
  The kernel program's run, read: its result is the one-hot table.

  After the region the host transposes the array the kernel wrote. That array is the transposed table, so the result is
  the table itself; the argument array is untouched throughout.
-/
import proofs.«153188_g33088428048464_cont_sun_c4_452_22_alg».proof.Proof.KernelBlocks

noncomputable section

open Idealize.ShloMosaic Idealize.ShloMosaic.TcCoe Idealize.SL.Sem
open Idealize.ShloMosaic.Pipeline (Dat)

namespace Cert.KernelIdeal.Run

open Idealize.ShloMosaic.ValueIdx Cert.KernelIdeal Cert.KernelIdeal.Gen Cert.KernelIdeal.GenP Cert.KernelIdeal.Blocks Cert.OneHot

variable (m : (ℓ : Loc nD τ sig) → Buf (Elt Ideal) ℓ) (ρ : Dev nD → PrngReg)

/-- The host's transpose after the region, of the array the region left: the table. -/
theorem tail_eq (c : Dev nD) :
    Pipeline.afterTail₀ cfgs (dats m) 0 (V0 m) [hostOps1] c main_v2
      = table (m ((c : Thread nD τ).loc main_arg0)) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v1)
      = tableT (m ((c : Thread nD τ).loc main_arg0)) :=
    (Pipeline.withArrays_arr spec0 launch0.win.arr_inj c _ _ 1).trans (final m c)
  rw [hA]
  exact transpose_tableT _ _

/-- THE RUN, READ: every weakly fair execution of the kernel program terminates with its result array at the one-hot table of
    the argument's words, and the argument array as it was. -/
theorem run : θ_run defs (onTc (τ := τ) (main (F := Ideal))) ⟨m, fun _ => 0, ρ⟩ fun r => ∀ c : Dev nD,
      r.2.mem ((c : Thread nD τ).loc main_v2) = table (m ((c : Thread nD τ).loc main_arg0))
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.KernelIdeal.Run

end
-- ==== Proof.RefValue.lean ====
/-
  The reference computes the one-hot table.

  The reference broadcasts the positions' words along the classes, an iota of the classes along the positions, compares the
  two and converts the bit to a float, unsigned. Read at an index `(b, k)` through the generated stage-by-stage lemmas, that
  is the bit of "position `b`'s word is the word of `k`" as a natural number: the table's entry.
-/
import proofs.«153188_g33088428048464_cont_sun_c4_452_22_alg».proof.Proof.Gen.ReferenceIdeal.Read
import proofs.«153188_g33088428048464_cont_sun_c4_452_22_alg».proof.Proof.OneHotSpec

noncomputable section

namespace Cert.ReferenceIdeal.RefValue

open Idealize.ShloMosaic Idealize.ShloMosaic.ValueIdx Cert.ReferenceIdeal Cert.ReferenceIdeal.Read Cert.OneHot

/-- The reference's result, as a function of the positions' words, is the table. -/
theorem result_eq (u : (⟨S1024, .i32⟩ : BufTy).Contents (Elt Ideal)) : val_main_v0 (F := Ideal) u = table u := by
  funext i
  have e0 : idx_main_call0_v0 (idx_main_call0_v2 i) = ix1 (⟨(i 0).val, (i 0).isLt⟩ : Fin 1024) :=
    funext fun a => by match a with | ⟨0, _⟩ => rfl
  rw [val_main_v0_apply, val_main_call0_v4_apply, val_main_call0_v2_apply, val_main_call0_v0_apply,
    val_main_call0_v3_apply, val_main_call0_v1_apply, e0]
  rfl

end Cert.ReferenceIdeal.RefValue

end
-- ==== Proof.lean ====
/-
  One-hot encoding of 1024 integer indices into 100000 classes: the kernel against `jax.nn.one_hot`.

  Both programs produce the table whose entry `(b, k)` is `1` if position `b`'s 32-bit word is the word of class `k` and `0`
  otherwise (Proof/OneHotSpec.lean: `table`). The reference broadcasts the words against an iota of the classes, compares,
  and converts the bit to a float (Proof/RefValue.lean, over the generated run of the reference read stage by stage). The
  kernel writes the TRANSPOSED table in 100 blocks of 1000 classes — block `t`, row `r` being class `1000 t + r`
  (Proof/KernelPayload.lean) —, the blocks tile the array (Proof/KernelBlocks.lean), and the host transposes it back
  (Proof/KernelRun.lean). No arithmetic on extended reals is involved: the two sides are the same bit, converted to the same
  number, so nothing is asked of the input words (a word that is no class's gives a zero row on both sides), and the claim's
  precondition is never opened.

  The three frames: the two kernel programs' are the frame certificates of Proof/KernelFrame.lean and
  Proof/KernelIdealFrame.lean; the reference's is its run with the result dropped. The idealization rewrote nothing, so
  `preserves` is trivial.
-/
import proofs.«153188_g33088428048464_cont_sun_c4_452_22_alg».proof.Defs
import proofs.«153188_g33088428048464_cont_sun_c4_452_22_alg».proof.Proof.Gen.Kernel
import proofs.«153188_g33088428048464_cont_sun_c4_452_22_alg».proof.Proof.Gen.KernelIdeal
import proofs.«153188_g33088428048464_cont_sun_c4_452_22_alg».proof.Proof.Gen.ReferenceIdeal
import proofs.«153188_g33088428048464_cont_sun_c4_452_22_alg».proof.Proof.KernelFrame
import proofs.«153188_g33088428048464_cont_sun_c4_452_22_alg».proof.Proof.KernelRun
import proofs.«153188_g33088428048464_cont_sun_c4_452_22_alg».proof.Proof.RefValue
import Idealize.ShloMosaic.Adequacy
import Idealize.ShloMosaic.Init

noncomputable section

namespace Cert.Proof

open Idealize.ShloMosaic Idealize.ShloMosaic.TcCoe Idealize.SL.Sem

/-- The kernel program, as printed, runs and leaves its argument as it was. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- And the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories agreeing on the indices, both programs end with the one-hot table of those indices as their result. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.result_eq, hagree c]

theorem claim : Cert.Claim :=
  ⟨Cert.Kernel.Gen.facts, Cert.KernelIdeal.Gen.facts, Cert.ReferenceIdeal.Gen.facts,
    frame_k, frame_ki, frame_ri, preserves, algebraic⟩

end Cert.Proof

end
